-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel

variable [Facts]

def fn {F : FTy → Type} [FloatOps F] (main_arg0 : FVec F S100000x32 .f32) (main_arg1 : IVec S1600000 32) (main_arg2 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  main_v3
-- ==== Kernel.lean ====
abbrev S100000x32 : Shape := ⟨2, ![100000, 32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S25000x128 : Shape := ⟨2, ![25000, 128]⟩
abbrev S5000x128 : Shape := ⟨2, ![5000, 128]⟩

abbrev nBuf : Space → Nat
  | .hbm => 41
  | .vmem => 6
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x32, .f32⟩
  | .hbm, ⟨12, _⟩ => ⟨S_, .f32⟩
  | .hbm, ⟨13, _⟩ => ⟨S100000x32, .f32⟩
  | .hbm, ⟨14, _⟩ => ⟨S1600000x1, .i32⟩
  | .hbm, ⟨15, _⟩ => ⟨S100000x32, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x32, .f32⟩
  | .hbm, ⟨37, _⟩ => ⟨S25000x128, .f32⟩
  | .hbm, ⟨38, _⟩ => ⟨S25000x128, .f32⟩
  | .hbm, ⟨39, _⟩ => ⟨S25000x128, .f32⟩
  | .hbm, ⟨40, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S100000x32_S25000x128 : S100000x32.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S100000x32 : S25000x128.ShapeCasts S100000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩

abbrev nBuf : Space → Nat
  | .hbm => 37
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x32, .f32⟩
  | .hbm, ⟨12, _⟩ => ⟨S_, .f32⟩
  | .hbm, ⟨13, _⟩ => ⟨S100000x32, .f32⟩
  | .hbm, ⟨14, _⟩ => ⟨S1600000x1, .i32⟩
  | .hbm, ⟨15, _⟩ => ⟨S100000x32, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .i1⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .f32⟩
  | .hbm, ⟨33, _⟩ => ⟨S_, .f32⟩
  | .hbm, ⟨34, _⟩ => ⟨S100000x32, .i1⟩
  | .hbm, ⟨35, _⟩ => ⟨S100000x32, .f32⟩
  | .hbm, ⟨36, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KerBlocks.lean ====
/- The kernel side, from blocks to the whole array.

   The launch walks a grid of five points. At point t each of the three windows stages one block of its
   [25000,128] array: the 5000 rows starting at row 5000·t, all 128 columns. The body multiplies the two input
   blocks entry by entry and stores the product over the whole output block, which the pipeline then writes back
   to rows 5000·t … 5000·t+4999 of the output array. The five blocks are disjoint and together hold every row,
   so after the run the output array is, index by index, the product of the two input arrays as the launch found
   them. This module proves exactly that. -/
import proofs.«137803_j68358699483725_2_alg».proof.Proof.Gen.KernelIdeal.Frame
import Idealize.ShloMosaic.Lib.Pipeline.Value

-- membership in a rectangle of 25000 rows: the structural recursion goes once per coordinate of the long axis
set_option maxRecDepth 16384

noncomputable section

namespace Cert.KernelIdeal.KerValue

open Cert.KernelIdeal Cert.KernelIdeal.Gen Idealize.ShloMosaic Idealize.ShloMosaic.TcCoe Idealize.SL.Sem
open Idealize.ShloMosaic.Pipeline (Dat)

variable {F : FTy → Type} [FloatOps F]

/-- The entrywise product of two arrays in the [25000,128] layout. -/
abbrev prod (a0 a1 : S25000x128.Idx → Elt F .f32) : S25000x128.Idx → Elt F .f32 :=
  fun i => FloatOps.mulf (a0 i) (a1 i)

/-- The body's loads and its store start at row 0, column 0 of the staged block: the offset vector is constantly zero. -/
theorem zero_offsets : (![0, 0] : Fin 2 → Nat) = fun _ => 0 := funext fun a => by fin_cases a <;> rfl

/-- What the body stores is the entrywise product of the two blocks it loaded: each block is first recast to the
    shape it already has, which changes nothing, and then the two are multiplied. -/
theorem payload_eq_mulf (x0 x1 : Vec F S5000x128 .f32) : k0_pay1 x0 x1 = mulf x0 x1 := by
  unfold k0_pay1
  simp only [shapeCast_self]

/-- The three windows move together: at every grid point the two input windows sit on the same block as the
    output window, that block's row index is one of 0 … 4, and its column index is 0 (a block spans all 128
    columns). Decided once over the five points. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4
    ∧ win0_2.index t (1 : Fin 2) = 0 :=
  (by decide +kernel : ∀ t : Fin grid0.N, _)

/-- Each of the five row blocks is some grid point's output block. -/
theorem index_onto : ∀ q0 : Fin 5, ∃ t : Fin cfg0.N, win0_2.index t = ![q0.val, 0] :=
  (by decide +kernel : ∀ q0 : Fin 5, ∃ t : Fin grid0.N, win0_2.index t = ![q0.val, 0])

variable (m : (ℓ : Loc nD τ sig) → Buf (Elt F) ℓ)

/-- What point t writes back is block t of the product array. The body leaves the product of the two staged input
    blocks; entry j of input block t is the input array at (block index × block size + j) on each axis, and since
    the input windows sit on the output's block this is the same array index the output block's entry j goes to. -/
theorem flushed_eq (c : Dev nD) (t : Fin cfg0.N) :
    (dats m 0 c).flushed 2 t
      = ((cfg0.win 2).blk t).view.read (Elt F) (prod (V m c main_v23) (V m c main_v24)) := by
  show (cfg0.win 2).cut (grid0.coords t) ((dats m 0 c).after 2 t) = _
  rw [after0_2]
  unfold out0_2
  rw [View.canon_unit_zero zero_offsets]
  simp only [View.ld_unit_zero (S := S5000x128) zero_offsets]
  rw [payload_eq_mulf]
  obtain ⟨e0, e1, e2, e3, e4, e5⟩ := index_facts t
  funext j
  show FloatOps.mulf (V m c main_v23 (((cfg0.win 0).blk t).view.emb j)) (V m c main_v24 (((cfg0.win 1).blk t).view.emb j))
    = FloatOps.mulf (V m c main_v23 (((cfg0.win 2).blk t).view.emb j)) (V m c main_v24 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the output array lies in point t's block exactly when, on each axis, its coordinate is in the
    range of block-size many values starting at block index × block size. -/
theorem mem_block (t : Fin cfg0.N) (i : S25000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v25).slice (win0_2.rect t)).set ↔ _
  rw [View.set_slice_whole, Rect.mem_set_unit]
  exact Iff.rfl

/-- The five blocks hold every index: row r lies in the block whose row index is r / 5000 (which is below 5 since
    r < 25000), and every column lies in the one column block. -/
theorem cover (i : S25000x128.Idx) :
    ∃ t : Fin cfg0.N, (cfg0.win 2).flush t = true ∧ i ∈ ((cfg0.win 2).blk t).view.set := by
  have hi0 : (i 0).val < 25000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the run the output window's array is the entrywise product of the two input arrays as the launch found
    them, at every index: each point writes back its block of the product, and the blocks hold every index. -/
theorem final2 (c : Dev nD) :
    (dats m 0 c).arrAt 2 cfg0.N = prod (V m c main_v23) (V m c main_v24) :=
  (dats m 0 c).arrAt_eq_of_cover 2 (prod (V m c main_v23) (V m c main_v24)) (fun t _ => flushed_eq m c t) cover

end Cert.KernelIdeal.KerValue

end
-- ==== Proof.KerStages.lean ====
/-
  The kernel program's value, stage by stage, as pure functions of its three argument arrays:
  node features `x0 : [100000, 32]`, edge sources `x1 : [1600000]` and edge destinations `x2 : [1600000]`.

  * `srcIdx`, `sums`, `deg` — as in the reference: the wrapped source column, the per-node sum of gathered rows,
    and the per-node count of incoming edges;
  * `scale x2`     — per node, the factor the sum is multiplied by: the reciprocal `1 / max deg 1` where `0 < deg`,
                     and `0` elsewhere;
  * `scaleRows x2` — that factor repeated along each node's row of 32 features;
  * `out x0 x1 x2` — the entrywise product of `sums` and `scaleRows`.

  The program forms the product on a re-laid copy of the two arrays — four consecutive rows of 32 laid side by side as
  one row of 128 — and lays the result back; a re-layout moves entries without changing them, and the product is taken
  entry by entry, so the result is the product of the arrays themselves (`relaid_product`).
-/
import proofs.«137803_j68358699483725_2_alg».proof.Proof.Gen.KernelIdeal
import Idealize.ShloMosaic.Lib.Pipeline.Value

noncomputable section

namespace Cert.KernelIdeal.KerValue

open Cert.KernelIdeal Cert.KernelIdeal.Gen Idealize.ShloMosaic Idealize.ShloMosaic.TcCoe

variable {F : FTy → Type} [FloatOps F]

/-- The edge sources, a negative one wrapped by the node count, as a column. -/
def srcIdx (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- Per node, the sum of the source rows of the edges ending there. -/
def sums (x0 : (⟨S100000x32, .f32⟩ : BufTy).Contents (Elt F)) (x1 x2 : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 x2)
    (Host.gather gather_S100000x32_S1600000x1_S1600000x32_1_0_n_n_0_1_132 x0 (srcIdx (F := F) x1))

/-- Per node, the number of edges ending there. -/
def deg (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 x2)
    (broadcastInDim S1600000 ![] bcast_S_S1600000 (constant (F := F) S_ .f32 0x3F800000#32))

/-- Per node, the factor its sum is multiplied by: `1 / max deg 1` where `0 < deg`, else `0`. -/
def scale (x2 : (⟨S1600000, .i32⟩ : BufTy).Contents (Elt F)) : (⟨S100000, .f32⟩ : BufTy).Contents (Elt F) :=
  select
    (cmpf .ogt (deg (F := F) x2) (broadcastInDim S100000 ![] bcast_S_S100000 (constant (F := F) S_ .f32 0x00000000#32)))
    (Host.divf (broadcastInDim S100000 ![] bcast_S_S100000 (constant (F := F) S_ .f32 0x3F800000#32))
      (maximumf (deg (F := F) x2) (broadcastInDim S100000 ![] bcast_S_S100000 (constant (F := F) S_ .f32 0x3F800000#32))))
    (broadcastInDim S100000 ![] bcast_S_S100000 (id (constant (F := F) S_ .f32 0x00000000#32)))

/-- The factor repeated along each node's row. -/
def scaleRows (x2 : (⟨S1600000, .i32⟩ : BufTy).Contents (Elt F)) : (⟨S100000x32, .f32⟩ : BufTy).Contents (Elt F) :=
  broadcastInDim S100000x32 ![0, 1] bcast_S100000x1_S100000x32_0_1
    (broadcastInDim S100000x1 ![0] bcast_S100000_S100000x1_0 (scale (F := F) x2))

/-- The kernel program's result: each node's sum times its factor. -/
def out (x0 : (⟨S100000x32, .f32⟩ : BufTy).Contents (Elt F)) (x1 x2 : (⟨S1600000, .i32⟩ : BufTy).Contents (Elt F)) :
    (⟨S100000x32, .f32⟩ : BufTy).Contents (Elt F) :=
  fun i => FloatOps.mulf (sums (F := F) x0 x1 x2 i) (scaleRows (F := F) x2 i)

/-- Laying two arrays out as [25000, 128], multiplying entry by entry and laying the product back as [100000, 32] is
    multiplying the arrays entry by entry: a re-layout only renames positions, and there and back is the identity. -/
theorem relaid_product (a b : S100000x32.Idx → Elt F .f32) :
    shapeCast S100000x32
        (fun i => FloatOps.mulf (shapeCast S25000x128 a shapeCasts_S100000x32_S25000x128 i)
          (shapeCast S25000x128 b shapeCasts_S100000x32_S25000x128 i))
        shapeCasts_S25000x128_S100000x32
      = fun i => FloatOps.mulf (a i) (b i) := by
  have h : (fun i => FloatOps.mulf (shapeCast S25000x128 a shapeCasts_S100000x32_S25000x128 i)
        (shapeCast S25000x128 b shapeCasts_S100000x32_S25000x128 i))
      = shapeCast S25000x128 (fun i => FloatOps.mulf (a i) (b i)) shapeCasts_S100000x32_S25000x128 := rfl
  rw [h, shapeCast_shapeCast]

end Cert.KernelIdeal.KerValue

end
-- ==== Proof.KerHost.lean ====
/-
  The kernel program's host lines around its one pipelined region, read as values.

  BEFORE the region the program computes, from the three argument arrays, the per-node sums and the per-node factor
  repeated along rows (Proof/KerStages.lean), and lays each out as [25000, 128]: these two re-laid arrays are what the
  region's two input windows find (`entry_sums`, `entry_scale`).

  AFTER the region one line lays the region's output array back out as [100000, 32]: the program's result is that
  re-layout of whatever the region's output window's array holds once every block has been written back (`result_eq`).
-/
import proofs.«137803_j68358699483725_2_alg».proof.Proof.Gen.KernelIdeal.Frame
import proofs.«137803_j68358699483725_2_alg».proof.Proof.KerStages
import Idealize.ShloMosaic.Lib.StableHlo.Run
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The first input window's array, as the region finds it: the per-node sums laid out as [25000, 128]. -/
theorem entry_sums (c : Dev nD) :
    (V m c main_v23 : S25000x128.Idx → Elt F .f32)
      = shapeCast S25000x128
          (sums (F := F) (m ((c.tc : Thread nD τ).loc main_arg0)) (m ((c.tc : Thread nD τ).loc main_arg1)) (m ((c.tc : Thread nD τ).loc main_arg2)))
          shapeCasts_S100000x32_S25000x128 := by
  dsimp only [Gen.V, Gen.V0]
  simp only [Gen.hostOps0, Gen.hostOps0_1, Gen.hostOps0_2, List.flatten_cons, List.flatten_nil, List.append_nil, List.cons_append, List.nil_append]
  after_results_simp
  rfl

set_option maxHeartbeats 2000000 in
/-- The second input window's array, as the region finds it: the per-node factor repeated along rows, laid out as
    [25000, 128]. -/
theorem entry_scale (c : Dev nD) :
    (V m c main_v24 : S25000x128.Idx → Elt F .f32)
      = shapeCast S25000x128 (scaleRows (F := F) (m ((c.tc : Thread nD τ).loc main_arg2))) shapeCasts_S100000x32_S25000x128 := by
  dsimp only [Gen.V, Gen.V0]
  simp only [Gen.hostOps0, Gen.hostOps0_1, Gen.hostOps0_2, List.flatten_cons, List.flatten_nil, List.append_nil, List.cons_append, List.nil_append]
  after_results_simp
  rfl

/-- The program's result: the region's output array, once every block is written back, laid out as [100000, 32]. -/
theorem result_eq (c : Dev nD) :
    (Pipeline.afterTail₀ cfgs (dats m) 0 (V0 m) [hostOps1] c main_v26 : S100000x32.Idx → Elt F .f32)
      = shapeCast S100000x32 ((dats m 0 c).arrAt 2 cfg0.N) shapeCasts_S25000x128_S100000x32 := by
  unfold Pipeline.afterTail₀
  show StableHlo.after hostOps1 _ (Proc.devRef .tc main_v26) = _
  after_results
  have hw : Pipeline.withArrays (cfgs 0).spec c (V0 m c) (fun w => (dats m 0 c).arrAt w (cfgs 0).N) (Proc.devRef .tc main_v25)
      = (dats m 0 c).arrAt 2 cfg0.N :=
    Pipeline.withArrays_arr spec0 launch0.win.arr_inj c (V0 m c) (fun w => (dats m 0 c).arrAt w cfg0.N) 2
  rw [hw]
  rfl

end Cert.KernelIdeal.KerValue

end
-- ==== Proof.KerRun.lean ====
/-
  The kernel program's run, with its result named.

  The generated frame run ends with every array of the pipeline at what its blocks wrote back and every other buffer as
  the line after the region leaves it.  Given that the region's output array ends as the entrywise product of its two
  input arrays (the blocks-to-array step, taken here as the hypothesis `hprod`), the result buffer is that product laid
  back out as [100000, 32]; the two input arrays are the per-node sums and the row-repeated factor laid out as
  [25000, 128] (Proof/KerHost.lean); and a product taken between two re-layouts that undo each other is the product of
  the arrays themselves (Proof/KerStages.lean `relaid_product`).  So the program ends with its result at
  `KerValue.out` of its arguments, and its arguments unchanged.
-/
import proofs.«137803_j68358699483725_2_alg».proof.Proof.Gen.KernelIdeal.Frame
import proofs.«137803_j68358699483725_2_alg».proof.Proof.KerStages
import proofs.«137803_j68358699483725_2_alg».proof.Proof.KerHost

set_option maxRecDepth 16384

noncomputable section

namespace Cert.KernelIdeal.KerValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The result buffer after the run, from the product form of the region's output array. -/
theorem result_out (c : Dev nD)
    (hprod : (dats m 0 c).arrAt 2 cfg0.N
      = fun i => FloatOps.mulf ((V m c main_v23 : S25000x128.Idx → Elt F .f32) i) ((V m c main_v24 : S25000x128.Idx → Elt F .f32) i)) :
    (Pipeline.afterTail₀ cfgs (dats m) 0 (V0 m) [hostOps1] c main_v26 : S100000x32.Idx → Elt F .f32)
      = out (F := F) (m ((c.tc : Thread nD τ).loc main_arg0)) (m ((c.tc : Thread nD τ).loc main_arg1)) (m ((c.tc : Thread nD τ).loc main_arg2)) := by
  rw [result_eq m c, hprod, entry_sums m c, entry_scale m c]
  exact relaid_product _ _

/-- THE KERNEL PROGRAM'S RUN: every weakly fair execution terminates with the result buffer at each node's sum times its
    factor and the three argument arrays unchanged. -/
theorem run
    (hprod : ∀ c : Dev nD, (dats m 0 c).arrAt 2 cfg0.N
      = fun i => FloatOps.mulf ((V m c main_v23 : S25000x128.Idx → Elt F .f32) i) ((V m c main_v24 : S25000x128.Idx → Elt F .f32) i)) :
    θ_run defs (onTc (τ := τ) (main (F := F))) ⟨m, fun _ => 0, ρ⟩ (fun r => ∀ c : Dev nD,
      r.2.mem ((c.tc : Thread nD τ).loc main_v26)
          = out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans (result_out m c (hprod c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.RefStages.lean ====
/-
  The reference program's value, stage by stage, as pure functions of its three argument arrays:
  node features `x0 : [100000, 32]`, edge sources `x1 : [1600000]` and edge destinations `x2 : [1600000]`.

  * `srcIdx x1`  — the source indices with a negative index wrapped once by the node count, as a column `[1600000, 1]`;
  * `sums x0 x1 x2` — for each node, the sum of the feature rows gathered along the edges that end at it
                     (a row gather followed by an accumulating row scatter into zeros);
  * `deg x2`     — for each node, the number of edges that end at it (ones scattered into zeros);
  * `out x0 x1 x2` — the segment mean: `sums / max deg 1` where `0 < deg`, and `0` elsewhere.

  The comparison `0 < deg` produces a mask of bits and `deg` depends on the integer array `x2` alone, so nothing in
  that sub-term says at which float instance its constants are read: every constant below names the instance.
-/
import proofs.«137803_j68358699483725_2_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- The edge sources, a negative one wrapped by the node count, as a column. -/
def srcIdx (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- Per node, the sum of the source rows of the edges ending there. -/
def sums (x0 : (⟨S100000x32, .f32⟩ : BufTy).Contents (Elt F)) (x1 x2 : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 x2)
    (Host.gather gather_S100000x32_S1600000x1_S1600000x32_1_0_n_n_0_1_132 x0 (srcIdx (F := F) x1))

/-- Per node, the number of edges ending there. -/
def deg (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 x2)
    (broadcastInDim S1600000 ![] bcast_S_S1600000 (constant (F := F) S_ .f32 0x3F800000#32))

/-- The segment mean, `0` for a node no edge ends at. -/
def out (x0 : (⟨S100000x32, .f32⟩ : BufTy).Contents (Elt F)) (x1 x2 : (⟨S1600000, .i32⟩ : BufTy).Contents (Elt F)) :
    (⟨S100000x32, .f32⟩ : BufTy).Contents (Elt F) :=
  select
    (broadcastInDim S100000x32 ![0, 1] bcast_S100000x1_S100000x32_0_1
      (cmpf .ogt (broadcastInDim S100000x1 ![0] bcast_S100000_S100000x1_0 (deg (F := F) x2))
        (broadcastInDim S100000x1 ![] bcast_S_S100000x1 (constant (F := F) S_ .f32 0x00000000#32))))
    (Host.divf (sums (F := F) x0 x1 x2)
      (broadcastInDim S100000x32 ![0, 1] bcast_S100000x1_S100000x32_0_1
        (maximumf (broadcastInDim S100000x1 ![0] bcast_S100000_S100000x1_0 (deg (F := F) x2))
          (broadcastInDim S100000x1 ![] bcast_S_S100000x1 (constant (F := F) S_ .f32 0x3F800000#32)))))
    (broadcastInDim S100000x32 ![] bcast_S_S100000x32 (id (constant (F := F) S_ .f32 0x00000000#32)))

end Cert.ReferenceIdeal.RefValue

end
-- ==== Proof.RefRun.lean ====
/-
  The reference program, run.

  The reference computes a segment mean over a graph: for every node, the mean of the feature rows of the
  sources of the edges that end at it, and zero for a node that no edge ends at. It is a straight line of
  tensor operations with no kernel in it, so running it is folding its operations, in order, over the
  contents of the buffers: each operation overwrites the one buffer it defines and leaves every other alone.

  Stage by stage, with `x0` the features, `x1` the edge sources and `x2` the edge destinations:

  * a source index below zero is moved up by the node count, and the sources are laid out as a column;
  * the feature rows are gathered along that column, one row per edge;
  * the gathered rows are accumulated into a table of zeros at the rows the destinations name: the sums;
  * ones are accumulated into a vector of zeros at the destinations: the degrees;
  * the degrees, as a column, are compared with zero (a mask) and raised to at least one (a divisor);
  * the sums are divided, entry by entry, by the divisor stretched along the feature axis;
  * where the stretched mask holds the quotient is kept, elsewhere zero is written.

  The last three lines are the body of a small function the program calls, standing in the place where it is called.
  The theorem reads the result buffer after the fold: it is `out` of the three arguments, which are unchanged.
-/
import proofs.«137803_j68358699483725_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program as the list of its thirty-four operations, in the order they run. -/
abbrev ops : List (HloOp τ sig (Elt F)) :=
  [ -- the sources, a negative one wrapped, as a column
    nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    -- one feature row per edge
    binary main_arg0 main_v5 main_v6 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    -- the sums: the rows accumulated at the destinations
    nullary main_cst (constant S_ .f32 0x00000000#32),
    unary main_cst main_v7 (broadcastInDim S100000x32 ![] bcast_S_S100000x32 : (⟨S_, .f32⟩ : BufTy).Contents (Elt F) → (⟨S100000x32, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    -- the degrees: ones accumulated at the destinations
    nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    -- the mask: where the degree is above zero
    unary main_v13 main_v14 (broadcastInDim S100000x1 ![0] bcast_S100000_S100000x1_0 : (⟨S100000, .f32⟩ : BufTy).Contents (Elt F) → (⟨S100000x1, .f32⟩ : BufTy).Contents (Elt F)),
    nullary main_cst_3 (constant S_ .f32 0x00000000#32),
    unary main_cst_3 main_v15 (broadcastInDim S100000x1 ![] bcast_S_S100000x1 : (⟨S_, .f32⟩ : BufTy).Contents (Elt F) → (⟨S100000x1, .f32⟩ : BufTy).Contents (Elt F)),
    binary main_v14 main_v15 main_v16 (cmpf .ogt : (⟨S100000x1, .f32⟩ : BufTy).Contents (Elt F) → (⟨S100000x1, .f32⟩ : BufTy).Contents (Elt F) → (⟨S100000x1, .i1⟩ : BufTy).Contents (Elt F)),
    -- the divisor: the degree, at least one
    unary main_v13 main_v17 (broadcastInDim S100000x1 ![0] bcast_S100000_S100000x1_0 : (⟨S100000, .f32⟩ : BufTy).Contents (Elt F) → (⟨S100000x1, .f32⟩ : BufTy).Contents (Elt F)),
    nullary main_cst_4 (constant S_ .f32 0x3F800000#32),
    unary main_cst_4 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x32 ![0, 1] bcast_S100000x1_S100000x32_0_1 : (⟨S100000x1, .f32⟩ : BufTy).Contents (Elt F) → (⟨S100000x32, .f32⟩ : BufTy).Contents (Elt F)),
    -- the quotient
    binary main_v9 main_v20 main_v21 (Host.divf : (⟨S100000x32, .f32⟩ : BufTy).Contents (Elt F) → (⟨S100000x32, .f32⟩ : BufTy).Contents (Elt F) → (⟨S100000x32, .f32⟩ : BufTy).Contents (Elt F)),
    -- the called function's body: zero at its own type, the mask and the zero stretched over the table, the choice
    nullary main_cst_5 (constant S_ .f32 0x00000000#32),
    TRef.unary (TRef.of (T := ⟨S_, .f32⟩) main_cst_5) (TRef.of (T := ⟨S_, .f32⟩) main_call0_v0) id,
    TRef.unary (TRef.of (T := ⟨S100000x1, .i1⟩) main_v16) (TRef.of (T := ⟨S100000x32, .i1⟩) main_call0_v1) (broadcastInDim S100000x32 ![0, 1] bcast_S100000x1_S100000x32_0_1),
    TRef.unary (TRef.of (T := ⟨S_, .f32⟩) main_call0_v0) (TRef.of (T := ⟨S100000x32, .f32⟩) main_call0_v2) (broadcastInDim S100000x32 ![] bcast_S_S100000x32),
    TRef.ternary (TRef.of (T := ⟨S100000x32, .i1⟩) main_call0_v1) (TRef.of (T := ⟨S100000x32, .f32⟩) main_v21) (TRef.of (T := ⟨S100000x32, .f32⟩) main_call0_v2) (TRef.of (T := ⟨S100000x32, .f32⟩) main_v22) select ]

/-- The program is that list run in order: the called function's body unfolds in place. -/
theorem main_eq (c : Dev nD) : main (F := F) c = seq ops := rfl

/-- No buffer and no counter of the program is local to a region. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., unary_bufs_sub .., ternary_bufs_sub ..,
    nullary_bufs_sub .., unary_bufs_sub .., nullary_bufs_sub .., unary_bufs_sub .., unary_bufs_sub .., ternary_bufs_sub ..,
    unary_bufs_sub .., nullary_bufs_sub .., unary_bufs_sub .., binary_bufs_sub ..,
    unary_bufs_sub .., nullary_bufs_sub .., unary_bufs_sub .., binary_bufs_sub .., unary_bufs_sub ..,
    binary_bufs_sub ..,
    nullary_bufs_sub .., unary_bufs_sub .., unary_bufs_sub .., unary_bufs_sub .., ternary_bufs_sub ..⟩

set_option maxHeartbeats 2000000 in
/-- On every device, at any float values, from any memory whose counters are zero: every fair execution of the
    reference ends, and it ends with the result buffer at the segment mean `out` of the three arguments as they
    were at the start, and with the three arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.LibMeanLaw.lean ====
/-
  A GENERAL LEMMA FILE: the masked segment-mean law on the extended reals (it imports only the ideal float operations).
  `div_eq_mul_recip`: a quotient by ANY nonzero extended real, an infinite one included, is the product with the
  divisor's reciprocal; `max_one_ne_zero`; `one_f32`: the pattern 0x3F800000 is one; and `scale_eq_masked_div`:
  `s * select (0 < g) (1 / max g 1) 0 = select (0 < g) (s / max g 1) 0` for every `s` and `g`.

  The one law that joins the two programs, on the extended reals.

  A segment mean is a segment sum `s` divided by the segment's size `g`, with the convention that an empty segment
  has mean `0`.  One program scales the sum by a factor computed beforehand — the reciprocal of `max g 1` where
  `0 < g`, and `0` elsewhere —, the other divides the sum by `max g 1` where `0 < g` and answers `0` elsewhere.

  The two agree for EVERY extended real `s` and `g`, the infinities included, so no finiteness is used:
  * `max g 1` is at least `1`, hence never `0`, so both quotients are products with the inverse `(max g 1)⁻¹`
    (an infinite divisor has inverse `0`), and `s * (1 * d⁻¹) = s * d⁻¹`;
  * where `0 < g` fails, the scale is `0` and `s * 0 = 0` on all of the extended reals.
-/
import Idealize.ShloMosaic.PureOps.Ideal

noncomputable section

namespace Cert.MeanLaw

open Idealize.ShloMosaic

/-- The pattern `0x3F800000` is the number one. -/
theorem one_f32 : Ideal.ofBits .f32 0x3F800000#32 = (1 : EReal) := by
  simp [Ideal.ofBits, Ideal.ieee]
  have h : (8388608 : ℝ) * ((2 : ℝ) ^ 23)⁻¹ = 1 := by norm_num
  exact_mod_cast h

/-- A quotient by a nonzero extended real is the product with the divisor's reciprocal. -/
theorem div_eq_mul_recip (s d : EReal) (hd : d ≠ 0) : Ideal.div s d = s * Ideal.div 1 d := by
  unfold Ideal.div
  rw [if_neg hd, if_neg hd, one_mul]

/-- The larger of anything and one is not zero. -/
theorem max_one_ne_zero (g : EReal) : max g 1 ≠ 0 := by
  have h : (0 : EReal) < max g 1 := lt_of_lt_of_le zero_lt_one (le_max_right g 1)
  exact ne_of_gt h

/-- THE LAW: scaling the sum by the masked reciprocal is dividing it under the same mask. -/
theorem scale_eq_masked_div (s g : EReal) :
    s * Scalar.select (Ideal.cmp .ogt g 0) (Ideal.div 1 (max g 1)) 0
      = Scalar.select (Ideal.cmp .ogt g 0) (Ideal.div s (max g 1)) 0 := by
  unfold Scalar.select
  by_cases h : Ideal.cmp .ogt g 0 = 1
  · rw [if_pos h, if_pos h, div_eq_mul_recip s _ (max_one_ne_zero g)]
  · rw [if_neg h, if_neg h, mul_zero]

end Cert.MeanLaw

end
-- ==== Proof.KerRead.lean ====
/-
  The kernel program's result read at one entry.

  Entry `(n, d)` of the result is entry `(n, d)` of `sums` times node `n`'s factor, and the factor is
  `1 / max (deg n) 1` where `0 < deg n` and `0` elsewhere: the factor array is the per-node `scale` placed in a
  column and repeated along each row, so its entry `(n, d)` does not depend on `d`; and a constant spread over the
  nodes reads the constant at every node.  `sums` and `deg` are never opened.
-/
import proofs.«137803_j68358699483725_2_alg».proof.Proof.KerStages
import proofs.«137803_j68358699483725_2_alg».proof.Proof.LibMeanLaw
import Idealize.ShloMosaic.Lib.ValueIdx
import Idealize.ShloMosaic.PureOps.Ideal.Laws
import Idealize.ShloMosaic.Lib.Pipeline.Value

noncomputable section

namespace Cert.KernelIdeal.KerValue

open Cert.KernelIdeal Cert.KernelIdeal.Gen Idealize.ShloMosaic Idealize.ShloMosaic.TcCoe Idealize.ShloMosaic.ValueIdx

/-- A number spread over the nodes reads that number at every node. -/
theorem spread_apply {α : Type} (y : S_.Idx → α) (j : S100000.Idx) :
    broadcastInDim S100000 ![] bcast_S_S100000 y j = y ix0 :=
  broadcastInDim_apply _ bcast_S_S100000 y j ix0 fun a => a.elim0

/-- A per-node array placed in a column reads node `i 0`'s value at row `i 0`. -/
theorem column_apply {α : Type} (y : S100000.Idx → α) (i : S100000x1.Idx) :
    broadcastInDim S100000x1 ![0] bcast_S100000_S100000x1_0 y i = y (ix1 (i 0)) :=
  broadcastInDim_apply _ bcast_S100000_S100000x1_0 y i (ix1 (i 0)) fun a => match a with
    | ⟨0, _⟩ => by
      show (i 0).val = if (100000 : Nat) = 1 then 0 else (i 0).val
      rw [if_neg (by decide)]

/-- A column repeated along each row reads the column's entry of that row, whatever the position in the row. -/
theorem rows_apply {α : Type} (y : S100000x1.Idx → α) (i : S100000x32.Idx) :
    broadcastInDim S100000x32 ![0, 1] bcast_S100000x1_S100000x32_0_1 y i = y (ix2 (i 0) 0) :=
  broadcastInDim_apply _ bcast_S100000x1_S100000x32_0_1 y i (ix2 (i 0) 0) fun a => match a with
    | ⟨0, _⟩ => by
      show (i 0).val = if (100000 : Nat) = 1 then 0 else (i 0).val
      rw [if_neg (by decide)]
    | ⟨1, _⟩ => by
      show 0 = if (1 : Nat) = 1 then 0 else (i 1).val
      rw [if_pos rfl]

/-- The quotient of two arrays of exact numbers is taken entry by entry. -/
theorem hostDivf_apply {s : Shape} {φ : FTy} (a b : FVec Ideal s φ) (i : s.Idx) :
    Host.divf a b i = Ideal.div (a i) (b i) := rfl

/-- Node `j`'s factor: the reciprocal of `max (deg j) 1` where `0 < deg j`, and `0` elsewhere. -/
theorem scale_apply (x2 : (⟨S1600000, .i32⟩ : BufTy).Contents (Elt Ideal)) (j : S100000.Idx) :
    scale (F := Ideal) x2 j
      = Scalar.select (Ideal.cmp .ogt (deg (F := Ideal) x2 j) 0) (Ideal.div 1 (max (deg (F := Ideal) x2 j) 1)) 0 := by
  unfold scale
  generalize deg (F := Ideal) x2 = g
  -- the choice, the comparison, the quotient and the maximum all act node by node
  rw [select_apply, cmpf_apply, hostDivf_apply, maximumf_apply]
  -- the three spread constants are their numbers
  rw [spread_apply, spread_apply, spread_apply, id_eq]
  rw [constant_apply, constant_apply, Ideal.ofBits_zero_f32, Cert.MeanLaw.one_f32]
  rfl

/-- Entry `(n, d)` of the factor array is node `n`'s factor. -/
theorem scaleRows_apply (x2 : (⟨S1600000, .i32⟩ : BufTy).Contents (Elt Ideal)) (n : Fin 100000) (d : Fin 32) :
    scaleRows (F := Ideal) x2 (ix2 n d) = scale (F := Ideal) x2 (ix1 n) := by
  unfold scaleRows
  generalize scale (F := Ideal) x2 = y
  rw [rows_apply, column_apply]

/-- THE KERNEL'S ENTRY: the sum's entry times the node's masked reciprocal. -/
theorem out_apply (x0 : (⟨S100000x32, .f32⟩ : BufTy).Contents (Elt Ideal)) (x1 x2 : (⟨S1600000, .i32⟩ : BufTy).Contents (Elt Ideal))
    (n : Fin 100000) (d : Fin 32) :
    out (F := Ideal) x0 x1 x2 (ix2 n d)
      = sums (F := Ideal) x0 x1 x2 (ix2 n d)
          * Scalar.select (Ideal.cmp .ogt (deg (F := Ideal) x2 (ix1 n)) 0) (Ideal.div 1 (max (deg (F := Ideal) x2 (ix1 n)) 1)) 0 := by
  unfold out
  -- the sums and the degrees are never opened: from here on they are arbitrary arrays
  generalize sums (F := Ideal) x0 x1 x2 = s
  rw [scaleRows_apply, scale_apply]
  generalize deg (F := Ideal) x2 = g
  exact Ideal.mulf_def _ _

end Cert.KernelIdeal.KerValue

end
-- ==== Proof.RefRead.lean ====
/-
  The reference's value at one entry.

  The reference's result is assembled from whole arrays: the per-node degree is turned into a column, compared with
  zero and raised to at least one there, both columns are stretched along the feature axis, the table of sums is
  divided by the stretched divisor, and the stretched mask chooses between the quotient and a table of zeros.
  Every one of these steps acts entry by entry, and the reshaping steps only repeat entries: entry `(n, 0)` of a
  vector laid out as a column is entry `n` of the vector; entry `(n, d)` of a column stretched to thirty-two
  columns is entry `(n, 0)` of the column; every entry of a number spread over an array is that number.
  So entry `(n, d)` of the result is: the quotient of entry `(n, d)` of the sums by `max (deg n) 1` if
  `0 < deg n`, and `0` otherwise. The sums and the degrees themselves are not opened here.
-/
import proofs.«137803_j68358699483725_2_alg».proof.Proof.RefStages
import proofs.«137803_j68358699483725_2_alg».proof.Proof.LibMeanLaw
import Idealize.ShloMosaic.Lib.ValueIdx
import Idealize.ShloMosaic.PureOps.Ideal.Laws
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The three ways an array is repeated -/

section Repeats
variable {α : Type}

/-- A vector laid out as a column: entry `(n, 0)` is the vector's entry `n`. -/
theorem col_apply (h : S100000.BroadcastsInDim S100000x1 ![0]) (y : S100000.Idx → α) (i : S100000x1.Idx) :
    broadcastInDim S100000x1 ![0] h y i = y (ix1 (i 0)) :=
  broadcastInDim_apply _ h y i (ix1 (i 0)) fun a => match a with
    | ⟨0, _⟩ => by
      show (i 0).val = if (100000 : Nat) = 1 then 0 else (i 0).val
      rw [if_neg (by decide)]

/-- A column stretched along a second axis: entry `(n, d)` is the column's entry `(n, 0)`. -/
theorem wide_apply (h : S100000x1.BroadcastsInDim S100000x32 ![0, 1]) (y : S100000x1.Idx → α) (i : S100000x32.Idx) :
    broadcastInDim S100000x32 ![0, 1] h y i = y (ix2 (i 0) 0) :=
  broadcastInDim_apply _ h y i (ix2 (i 0) 0) fun a => match a with
    | ⟨0, _⟩ => by
      show (i 0).val = if (100000 : Nat) = 1 then 0 else (i 0).val
      rw [if_neg (by decide)]
    | ⟨1, _⟩ => by
      show 0 = if (1 : Nat) = 1 then 0 else (i 1).val
      rw [if_pos rfl]

/-- One number spread over an array: every entry is that number. -/
theorem splat_apply (t : Shape) (h : S_.BroadcastsInDim t ![]) (y : S_.Idx → α) (i : t.Idx) :
    broadcastInDim t ![] h y i = y ix0 :=
  broadcastInDim_apply _ h y i ix0 fun a => a.elim0

end Repeats

/-- The quotient of two arrays of exact numbers is taken entry by entry. -/
theorem hostDivf_apply {s : Shape} {φ : FTy} (a b : FVec Ideal s φ) (i : s.Idx) :
    Host.divf a b i = Ideal.div (a i) (b i) := rfl

/-! ## The result at an entry -/

/-- Entry `(n, d)` of the segment mean: where node `n` has an edge ending at it, the sum's entry over the degree
    (raised to at least one, which changes nothing there); elsewhere zero. -/
theorem out_apply (x0 : (⟨S100000x32, .f32⟩ : BufTy).Contents (Elt Ideal)) (x1 x2 : (⟨S1600000, .i32⟩ : BufTy).Contents (Elt Ideal))
    (n : Fin 100000) (d : Fin 32) :
    out (F := Ideal) x0 x1 x2 (ValueIdx.ix2 n d)
      = Scalar.select (Ideal.cmp .ogt (deg (F := Ideal) x2 (ValueIdx.ix1 n)) 0)
          (Ideal.div (sums (F := Ideal) x0 x1 x2 (ValueIdx.ix2 n d)) (max (deg (F := Ideal) x2 (ValueIdx.ix1 n)) 1)) 0 := by
  unfold out
  generalize deg (F := Ideal) x2 = g
  generalize sums (F := Ideal) x0 x1 x2 = s
  -- the choice and the quotient act entry by entry
  rw [select_apply, hostDivf_apply]
  -- the stretched mask and the stretched divisor read the columns at (n, 0)
  rw [wide_apply, wide_apply]
  rw [cmpf_apply, maximumf_apply]
  -- the column of degrees at (n, 0) is the degree of n; the three spread constants are their numbers
  rw [col_apply, splat_apply, splat_apply, splat_apply, id_eq]
  rw [constant_apply, constant_apply, Ideal.ofBits_zero_f32, Cert.MeanLaw.one_f32]
  rfl

end Cert.ReferenceIdeal.RefValue

end
-- ==== Proof.Bridge.lean ====
/-
  The two programs compute one function.

  Both programs build the same two intermediate arrays from the same arguments by the same operations — the per-node
  sums of gathered rows and the per-node counts of incoming edges — so those are equal outright (`sums_eq`, `deg_eq`).
  They differ only in how the mean is finished: entry `(n, d)` is, in one program, the sum's entry TIMES node `n`'s
  factor (`1 / max deg 1` where `0 < deg`, else `0`), and in the other the sum's entry DIVIDED by `max deg 1` where
  `0 < deg`, else `0`.  Those are one extended real for every sum and every degree (Proof/LibMeanLaw.lean).
-/
import proofs.«137803_j68358699483725_2_alg».proof.Proof.KerRead
import proofs.«137803_j68358699483725_2_alg».proof.Proof.RefRead
import proofs.«137803_j68358699483725_2_alg».proof.Proof.LibMeanLaw

noncomputable section

namespace Cert.Bridge

open Idealize.ShloMosaic Idealize.ShloMosaic.TcCoe Idealize.ShloMosaic.ValueIdx

/-- The per-node sums are the same function of the arguments in both programs. -/
theorem sums_eq (x0 : (⟨Cert.KernelIdeal.S100000x32, .f32⟩ : BufTy).Contents (Elt Ideal))
    (x1 x2 : (⟨Cert.KernelIdeal.S1600000, .i32⟩ : BufTy).Contents (Elt Ideal)) :
    Cert.KernelIdeal.KerValue.sums (F := Ideal) x0 x1 x2 = Cert.ReferenceIdeal.RefValue.sums (F := Ideal) x0 x1 x2 := rfl

/-- The per-node edge counts are the same function of the destinations in both programs. -/
theorem deg_eq (x2 : (⟨Cert.KernelIdeal.S1600000, .i32⟩ : BufTy).Contents (Elt Ideal)) :
    Cert.KernelIdeal.KerValue.deg (F := Ideal) x2 = Cert.ReferenceIdeal.RefValue.deg (F := Ideal) x2 := rfl

/-- THE TWO RESULTS ARE ONE ARRAY: entry by entry, scaling by the masked reciprocal is dividing under the mask. -/
theorem out_eq (x0 : (⟨Cert.KernelIdeal.S100000x32, .f32⟩ : BufTy).Contents (Elt Ideal))
    (x1 x2 : (⟨Cert.KernelIdeal.S1600000, .i32⟩ : BufTy).Contents (Elt Ideal)) :
    Cert.KernelIdeal.KerValue.out (F := Ideal) x0 x1 x2 = Cert.ReferenceIdeal.RefValue.out (F := Ideal) x0 x1 x2 := by
  funext i
  obtain ⟨n, d, rfl⟩ : ∃ (n : Fin 100000) (d : Fin 32), i = ix2 n d := ⟨i 0, i 1, eq_ix2 i⟩
  rw [Cert.KernelIdeal.KerValue.out_apply, Cert.ReferenceIdeal.RefValue.out_apply, sums_eq, deg_eq]
  -- from here on the sums and the degrees are arbitrary arrays
  generalize Cert.ReferenceIdeal.RefValue.sums (F := Ideal) x0 x1 x2 = s
  generalize Cert.ReferenceIdeal.RefValue.deg (F := Ideal) x2 = g
  exact Cert.MeanLaw.scale_eq_masked_div _ _

end Cert.Bridge

end
-- ==== Proof.lean ====
/-
  A segment mean over a graph's edges, computed two ways, is one function on the extended reals.

  Both programs take node features `hn : [100000, 32]` and edge endpoints `src, dst : [1600000]`; both gather the source
  row of every edge, add the gathered rows into their destination nodes (`sums`) and count the edges ending at each
  node (`deg`).  The reference finishes with `sums / max deg 1` where `0 < deg` and `0` elsewhere.  The kernel program
  first computes a per-node factor — `1 / max deg 1` where `0 < deg`, `0` elsewhere —, repeats it along each node's
  row, lays `sums` and the factors out as [25000, 128], multiplies them entry by entry in a pipelined region of five
  blocks of 5000 rows, and lays the product back out as [100000, 32].

  * The three frames: the two kernel programs' are the generated frame certificates; the reference's is its run
    (Proof/RefRun.lean) with the result dropped.
  * `preserves`: the idealized kernel is the kernel's own text read at the extended reals; nothing was rewritten.
  * `algebraic`: the kernel program ends with its result at each node's sum times its factor (Proof/KerBlocks.lean: the
    five blocks written back make up the entrywise product of the two input arrays; Proof/KerHost.lean: what those arrays
    are and what the line after the region does; Proof/KerRun.lean); the reference ends at the masked quotient
    (Proof/RefRun.lean); and the two are equal entry by entry (Proof/Bridge.lean over Proof/LibMeanLaw.lean): a quotient by a
    nonzero extended real is the product with its reciprocal, `max deg 1` is never zero, and anything times zero is
    zero.  No finiteness of the inputs is used.
-/
import proofs.«137803_j68358699483725_2_alg».proof.Defs
import proofs.«137803_j68358699483725_2_alg».proof.Proof.Gen.Kernel
import proofs.«137803_j68358699483725_2_alg».proof.Proof.Gen.Kernel.Skeleton
import proofs.«137803_j68358699483725_2_alg».proof.Proof.Gen.Kernel.Launch
import proofs.«137803_j68358699483725_2_alg».proof.Proof.Gen.Kernel.Points
import proofs.«137803_j68358699483725_2_alg».proof.Proof.Gen.Kernel.Frame
import proofs.«137803_j68358699483725_2_alg».proof.Proof.Gen.KernelIdeal
import proofs.«137803_j68358699483725_2_alg».proof.Proof.Gen.KernelIdeal.Skeleton
import proofs.«137803_j68358699483725_2_alg».proof.Proof.Gen.KernelIdeal.Launch
import proofs.«137803_j68358699483725_2_alg».proof.Proof.Gen.KernelIdeal.Points
import proofs.«137803_j68358699483725_2_alg».proof.Proof.Gen.KernelIdeal.Frame
import proofs.«137803_j68358699483725_2_alg».proof.Proof.Gen.ReferenceIdeal
import proofs.«137803_j68358699483725_2_alg».proof.Proof.Gen.Pre_finite_inputs
import proofs.«137803_j68358699483725_2_alg».proof.Proof.KerBlocks
import proofs.«137803_j68358699483725_2_alg».proof.Proof.KerRun
import proofs.«137803_j68358699483725_2_alg».proof.Proof.RefRun
import proofs.«137803_j68358699483725_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Nothing was rewritten between the kernel program and its reading at the extended reals. -/
theorem preserves : Cert.preserves_Kernel_KernelIdeal := trivial

/-- From memories that agree on the three arguments both programs end, with one result: each node's sum of gathered rows
    times its masked reciprocal degree on one side, the masked quotient on the other. -/
theorem algebraic : Cert.algebraic_KernelIdeal_ReferenceIdeal := by
  intro m ρ m' ρ' _ hagree
  refine ⟨_, Cert.KernelIdeal.KerValue.run (F := Ideal) m ρ (fun c => Cert.KernelIdeal.KerValue.final2 m c), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]
  exact (Cert.Bridge.out_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
